-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x256 : Shape := ⟨2, ![8192, 256]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S256x4096 : Shape := ⟨2, ![256, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256x4096 : S_.BroadcastsInDim S256x4096 (![] : Fin 0 → Fin S256x4096.rank)
  reducesTo_S256x4096_S_d0_1 : S256x4096.ReducesTo [0, 1] S_

variable [Facts]

def fn_part3 {F : FTy → Type} [FloatOps F] (main_arg11 : FVec F S256x4096 .f32) (main_arg12 : FVec F S4096 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S256x4096 .f32 := Host.absf main_arg11
  let main_cst_20 : FVec F S_ .f32 := constant S_ .f32 0x7F800000#32
  let main_v55 : FVec F S256x4096 .f32 := broadcastInDim S256x4096 ![] bcast_S_S256x4096 main_cst_20
  let main_v56 : IVec S256x4096 1 := cmpf .olt main_v54 main_v55
  let main_c_21 : IVec S_ 1 := constantI S_ 1 1#1
  let main_v57 : IVec S_ 1 := (fun x v => Host.reduce IntOp.andi x v reducesTo_S256x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S1024x4096 .f32) (main_arg8 : FVec F S4096 .f32) (main_arg9 : FVec F S1024x1024 .f32) (main_arg10 : FVec F S1024 .f32) (main_arg11 : FVec F S256x4096 .f32) (main_arg12 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S8192x256 .f32) (main_arg5 : FVec F S1024x4096 .f32) (main_arg6 : FVec F S4096 .f32) (main_arg7 : FVec F S1024x4096 .f32) (main_arg8 : FVec F S4096 .f32) (main_arg9 : FVec F S1024x1024 .f32) (main_arg10 : FVec F S1024 .f32) (main_arg11 : FVec F S256x4096 .f32) (main_arg12 : FVec F S4096 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x256 .f32) (main_arg5 : FVec F S1024x4096 .f32) (main_arg6 : FVec F S4096 .f32) (main_arg7 : FVec F S1024x4096 .f32) (main_arg8 : FVec F S4096 .f32) (main_arg9 : FVec F S1024x1024 .f32) (main_arg10 : FVec F S1024 .f32) (main_arg11 : FVec F S256x4096 .f32) (main_arg12 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S8192x256 : Shape := ⟨2, ![8192, 256]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S256x4096 : Shape := ⟨2, ![256, 4096]⟩
abbrev S1x4096 : Shape := ⟨2, ![1, 4096]⟩
abbrev S1x1024 : Shape := ⟨2, ![1, 1024]⟩
abbrev S256x1024 : Shape := ⟨2, ![256, 1024]⟩
abbrev S256x256 : Shape := ⟨2, ![256, 256]⟩

abbrev nBuf : Space → Nat
  | .hbm => 23
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x256, .f32⟩
  | .hbm, ⟨5, _⟩ => ⟨S1024x4096, .f32⟩
  | .hbm, ⟨6, _⟩ => ⟨S4096, .f32⟩
  | .hbm, ⟨7, _⟩ => ⟨S1024x4096, .f32⟩
  | .hbm, ⟨8, _⟩ => ⟨S4096, .f32⟩
  | .hbm, ⟨9, _⟩ => ⟨S1024x1024, .f32⟩
  | .hbm, ⟨10, _⟩ => ⟨S1024, .f32⟩
  | .hbm, ⟨11, _⟩ => ⟨S256x4096, .f32⟩
  | .hbm, ⟨12, _⟩ => ⟨S4096, .f32⟩
  | .hbm, ⟨13, _⟩ => ⟨S1024x4096, .bf16⟩
  | .hbm, ⟨14, _⟩ => ⟨S1024x4096, .bf16⟩
  | .hbm, ⟨15, _⟩ => ⟨S256x4096, .bf16⟩
  | .hbm, ⟨16, _⟩ => ⟨S1024x1024, .bf16⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S1x1024, .f32⟩
  | .hbm, ⟨21, _⟩ => ⟨S8192x1024, .f32⟩
  | .hbm, ⟨22, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S1024x4096, .bf16⟩
  | .local _ .vmem, ⟨11, _⟩ => ⟨S1024x4096, .bf16⟩
  | .local _ .vmem, ⟨12, _⟩ => ⟨S256x4096, .bf16⟩
  | .local _ .vmem, ⟨13, _⟩ => ⟨S1024x1024, .bf16⟩
  | .local _ .vmem, ⟨14, _⟩ => ⟨S1x4096, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S256x256_S256x256_0_0 : ∀ a, (![0, 0] : Fin 2 → Nat) a + S256x256.size a ≤ S256x256.size a
  h_S256x256 : 0 < S256x256.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x1024_0_0 : ∀ a, (![0, 0] : Fin 2 → Nat) a + S1024x1024.size a ≤ S1024x4096.size a
  inb_S256x4096_S256x1024_0_0 : ∀ a, (![0, 0] : Fin 2 → Nat) a + S256x1024.size a ≤ S256x4096.size a
  shapeCasts_S256x1024_S256x1024 : S256x1024.ShapeCasts S256x1024
  inb_S1x4096_S1x1024_0_0 : ∀ a, (![0, 0] : Fin 2 → Nat) a + S1x1024.size a ≤ S1x4096.size a
  inb_S1024x4096_S1024x1024_0_1024 : ∀ a, (![0, 1024] : Fin 2 → Nat) a + S1024x1024.size a ≤ S1024x4096.size a
  inb_S256x4096_S256x1024_0_1024 : ∀ a, (![0, 1024] : Fin 2 → Nat) a + S256x1024.size a ≤ S256x4096.size a
  inb_S1x4096_S1x1024_0_1024 : ∀ a, (![0, 1024] : Fin 2 → Nat) a + S1x1024.size a ≤ S1x4096.size a
  inb_S1024x4096_S1024x1024_0_3072 : ∀ a, (![0, 3072] : Fin 2 → Nat) a + S1024x1024.size a ≤ S1024x4096.size a
  inb_S256x4096_S256x1024_0_3072 : ∀ a, (![0, 3072] : Fin 2 → Nat) a + S256x1024.size a ≤ S256x4096.size a
  inb_S1x4096_S1x1024_0_3072 : ∀ a, (![0, 3072] : Fin 2 → Nat) a + S1x1024.size a ≤ S1x4096.size a
  inb_S1024x4096_S1024x1024_0_2048 : ∀ a, (![0, 2048] : Fin 2 → Nat) a + S1024x1024.size a ≤ S1024x4096.size a
  inb_S256x4096_S256x1024_0_2048 : ∀ a, (![0, 2048] : Fin 2 → Nat) a + S256x1024.size a ≤ S256x4096.size a
  inb_S1x4096_S1x1024_0_2048 : ∀ a, (![0, 2048] : Fin 2 → Nat) a + S1x1024.size a ≤ S1x4096.size a
  dot_S256x1024_S1024x1024_S256x1024_1_0_0_1_n_n_wf : DotDims.WF S256x1024 S1024x1024 S256x1024 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x256.size a
  hwx0_3 : ∀ i : grid0.Coords, EltTy.bits .f32 = 32 ∨ (Rect.block (s := S8192x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S256x4096.size a
  hwx0_7 : ∀ i : grid0.Coords, EltTy.bits .bf16 = 32 ∨ (Rect.block (s := S256x4096) S256x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S8192x1024.size a
  hwx0_12 : ∀ i : grid0.Coords, EltTy.bits .f32 = 32 ∨ (Rect.block (s := S8192x1024) S256x1024.size (cc0_transform_12 i) (hinb0_12 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x256 : Shape := ⟨2, ![8192, 256]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S256x4096 : Shape := ⟨2, ![256, 4096]⟩
abbrev S8192x4096 : Shape := ⟨2, ![8192, 4096]⟩
abbrev S1x4096 : Shape := ⟨2, ![1, 4096]⟩
abbrev S1x1024 : Shape := ⟨2, ![1, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x256, .f32⟩
  | .hbm, ⟨5, _⟩ => ⟨S1024x4096, .f32⟩
  | .hbm, ⟨6, _⟩ => ⟨S4096, .f32⟩
  | .hbm, ⟨7, _⟩ => ⟨S1024x4096, .f32⟩
  | .hbm, ⟨8, _⟩ => ⟨S4096, .f32⟩
  | .hbm, ⟨9, _⟩ => ⟨S1024x1024, .f32⟩
  | .hbm, ⟨10, _⟩ => ⟨S1024, .f32⟩
  | .hbm, ⟨11, _⟩ => ⟨S256x4096, .f32⟩
  | .hbm, ⟨12, _⟩ => ⟨S4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x4096_S8192x1024_0_0 : S8192x4096.Slices ![0, 0] S8192x1024
  bcast_S_S8192x1024 : S_.BroadcastsInDim S8192x1024 (![] : Fin 0 → Fin S8192x1024.rank)
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  dot_S8192x1024_S1024x4096_S8192x4096_1_0_0_1_n_n_wf : DotDims.WF S8192x1024 S1024x4096 S8192x4096 [1] [0] [0] [1] [] []
  dot_S8192x256_S256x4096_S8192x4096_1_0_0_1_n_n_wf : DotDims.WF S8192x256 S256x4096 S8192x4096 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The gated recurrent cell as ONE function of its thirteen argument arrays, index by index, on the extended reals.

  For a batch row r and a cell column q (0 ≤ q < 1024) write, for a column j of the 4096 gate columns,
      pre(r, j) = Σ_k x(r,k)·Ww(k,j) + Σ_k htm(r,k)·Uw(k,j) + Σ_k spk(r,k)·Sw(k,j) + (Wb(j) + Ub(j) + Sb(j))
  and   hyb(r, q) = Σ_k ztm(r,k)·Vw(k,q) + Vb(q).  With σ the logistic function 1/(1 + e^(-x)),
      c(r, q) = (σ(pre(r, q)) + σ(hyb(r, q)))·ctm(r, q) + σ(pre(r, 1024+q))·tanh(pre(r, 3072+q))
      h(r, q) = tanh(c(r, q))·σ(pre(r, 2048+q)).
  This is the arrangement in which the two forget gates are added before the product with the previous cell state.
  The other arrangement multiplies each forget gate by the previous cell state separately and adds the three biases
  each to its own matrix product; the two agree because the extended reals' addition is commutative and associative
  and because a product distributes over a sum of two NON-NEGATIVE extended reals (σ is never negative: 0 at -∞, 1 at +∞,
  a positive real in between). No finiteness of any entry is used.
-/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Cell

/-- The thirteen argument arrays, as extended-real functions of their indices. -/
structure Args where
  x : FVec Ideal ⟨2, ![8192, 1024]⟩ .f32
  ctm : FVec Ideal ⟨2, ![8192, 1024]⟩ .f32
  htm : FVec Ideal ⟨2, ![8192, 1024]⟩ .f32
  ztm : FVec Ideal ⟨2, ![8192, 1024]⟩ .f32
  spk : FVec Ideal ⟨2, ![8192, 256]⟩ .f32
  Ww : FVec Ideal ⟨2, ![1024, 4096]⟩ .f32
  Wb : FVec Ideal ⟨1, ![4096]⟩ .f32
  Uw : FVec Ideal ⟨2, ![1024, 4096]⟩ .f32
  Ub : FVec Ideal ⟨1, ![4096]⟩ .f32
  Vw : FVec Ideal ⟨2, ![1024, 1024]⟩ .f32
  Vb : FVec Ideal ⟨1, ![1024]⟩ .f32
  Sw : FVec Ideal ⟨2, ![256, 4096]⟩ .f32
  Sb : FVec Ideal ⟨1, ![4096]⟩ .f32

/-- Column q of the gate whose columns start at o, among the 4096 gate columns. -/
def gcol (o : ℕ) (ho : o + 1024 ≤ 4096) (q : Fin 1024) : Fin 4096 := ⟨o + q.val, by have := q.isLt; omega⟩

theorem gcol_val (o : ℕ) (ho : o + 1024 ≤ 4096) (q : Fin 1024) : (gcol o ho q).val = o + q.val := rfl

/-- The three matrix products of a gate column, added, before the biases. -/
def dots (a : Args) (r : Fin 8192) (j : Fin 4096) : EReal :=
  ((∑ k : Fin 1024, a.x (ix2 r k) * a.Ww (ix2 k j)) + ∑ k : Fin 1024, a.htm (ix2 r k) * a.Uw (ix2 k j))
    + ∑ k : Fin 256, a.spk (ix2 r k) * a.Sw (ix2 k j)

/-- A gate column's pre-activation at a row: the three products plus the three biases added together. -/
def pre (a : Args) (r : Fin 8192) (j : Fin 4096) : EReal :=
  dots a r j + ((a.Wb (ix1 j) + a.Ub (ix1 j)) + a.Sb (ix1 j))

/-- The hybrid forget gate's pre-activation. -/
def hyb (a : Args) (r : Fin 8192) (q : Fin 1024) : EReal :=
  (∑ k : Fin 1024, a.ztm (ix2 r k) * a.Vw (ix2 k q)) + a.Vb (ix1 q)

/-- The new cell state at (r, q). -/
def cAt (a : Args) (r : Fin 8192) (q : Fin 1024) : EReal :=
  (Ideal.logistic (pre a r (gcol 0 (by decide) q)) + Ideal.logistic (hyb a r q)) * a.ctm (ix2 r q)
    + Ideal.logistic (pre a r (gcol 1024 (by decide) q)) * Ideal.tanh (pre a r (gcol 3072 (by decide) q))

/-- The new hidden state at (r, q). -/
def hAt (a : Args) (r : Fin 8192) (q : Fin 1024) : EReal :=
  Ideal.tanh (cAt a r q) * Ideal.logistic (pre a r (gcol 2048 (by decide) q))

/-- The new cell state, as an array. -/
def cT (a : Args) : FVec Ideal ⟨2, ![8192, 1024]⟩ .f32 := fun i => cAt a (i 0) (i 1)

/-- The new hidden state, as an array. -/
def hT (a : Args) : FVec Ideal ⟨2, ![8192, 1024]⟩ .f32 := fun i => hAt a (i 0) (i 1)

theorem cT_ix2 (a : Args) (r : Fin 8192) (q : Fin 1024) : cT a (ix2 r q) = cAt a r q := rfl
theorem hT_ix2 (a : Args) (r : Fin 8192) (q : Fin 1024) : hT a (ix2 r q) = hAt a r q := rfl

/-! ## The laws that join the two arrangements -/

/-- The logistic function is never negative on the extended reals. -/
theorem logistic_nonneg (x : EReal) : 0 ≤ Ideal.logistic x := by
  induction x using EReal.rec with
  | bot => rw [Ideal.logistic_bot]
  | coe r =>
    rw [Ideal.logistic_coe]
    exact EReal.coe_nonneg.mpr (inv_nonneg.mpr (add_nonneg zero_le_one (Real.exp_pos _).le))
  | top => rw [Ideal.logistic_top]; exact zero_le_one

/-- One over one plus the exponential of the negation IS the logistic function. -/
theorem logistic_spelt (x : EReal) : Ideal.div 1 (1 + Ideal.exp (-x)) = Ideal.logistic x := rfl

/-- Each bias added to its own product, or the three biases added together and then to the three products:
    the same extended real, by commutativity and associativity alone. -/
theorem biases_regroup (s1 s2 s3 b1 b2 b3 : EReal) :
    ((s1 + b1) + (s2 + b2)) + (s3 + b3) = ((s1 + s2) + s3) + ((b1 + b2) + b3) := by
  rw [add_add_add_comm s1 b1 s2 b2, add_add_add_comm (s1 + s2) (b1 + b2) s3 b3]

/-- Two non-negative gates times one state, added, is their sum times the state; the input term moves across. -/
theorem forget_regroup {f f' c t : EReal} (hf : 0 ≤ f) (hf' : 0 ≤ f') :
    (f * c + t) + f' * c = (f + f') * c + t := by
  rw [EReal.right_distrib_of_nonneg hf hf', add_right_comm]

end Cert.Cell

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.KernelBlock.lean ====
/-
  What one grid point's body leaves in the two output blocks, read at a block index (p, q).

  The body computes, for each of the four gates, three matrix products of the point's row blocks (the input, the previous
  hidden state, the speaker vector — each narrowed to bf16, which changes nothing on the extended reals) with a
  1024-column slice of the resident weight matrices, adds them, and adds the slice of the one pre-summed bias row; and
  one more product for the hybrid forget gate. Each product, into the zero accumulator, is at (p, q) the sum over the
  contraction coordinate of left(p, k)·right(k, q); the bias row broadcast over the rows reads its one row at q; a load of
  columns o … o+1023 of a matrix reads, at (k, q), the matrix at (k, o+q).
-/
import proofs.«162286_j20504173871325_2_alg».proof.Proof.Gen.KernelIdeal.Frame
import proofs.«162286_j20504173871325_2_alg».proof.Proof.Spec
import proofs.«162286_j20504173871325_2_alg».proof.Proof.LibPlainMatmul
import Idealize.ShloMosaic.Lib.Pipeline.Value
import Idealize.ShloMosaic.Lib.ValueIdx
import Idealize.ShloMosaic.Lib.ValueLayout

noncomputable section

open scoped BigOperators

open Idealize.ShloMosaic Idealize.ShloMosaic.TcCoe Idealize.ShloMosaic.ValueIdx

namespace Cert.KernelIdeal.Block

open Cert.KernelIdeal Cert.KernelIdeal.Gen Cert.Cell Cert.Lib.PlainMatmul

theorem hz : (![0, 0] : Fin 2 → Nat) = fun _ => 0 := funext fun a => by fin_cases a <;> rfl

/-- Columns o … o+1023 of an [n, 4096] matrix, loaded as an [n, 1024] block: at (k, q) the matrix at (k, o+q). -/
theorem ld_cols {n : ℕ} {e : EltTy} (X : (⟨2, ![n, 4096]⟩ : Shape).Idx → Elt Ideal e) (o : ℕ) (ho : o + 1024 ≤ 4096)
    (inb : ∀ a, (![0, o] : Fin 2 → ℕ) a + (⟨2, ![n, 1024]⟩ : Shape).size a ≤ (⟨2, ![n, 4096]⟩ : Shape).size a)
    (k : Fin n) (q : Fin 1024) :
    View.ld (Val := Elt Ideal) X (Rect.unit (s := ⟨2, ![n, 4096]⟩) ![0, o] (⟨2, ![n, 1024]⟩ : Shape).size inb) (ix2 k q)
      = X (ix2 k (gcol o ho q)) := by
  show X _ = X _
  refine congrArg X (funext fun a => Fin.ext ?_)
  match a with
  | ⟨0, _⟩ => show 0 + 1 * k.val = k.val; omega
  | ⟨1, _⟩ => show o + 1 * q.val = o + q.val; omega

/-- A gate's pre-activation over one point's blocks: three row-by-column sums and the bias row's entry. -/
def gsum (xb hb : FVec Ideal S256x1024 .bf16) (sb : FVec Ideal S256x256 .bf16)
    (w u : FVec Ideal S1024x1024 .bf16) (s : FVec Ideal S256x1024 .bf16) (b : FVec Ideal S1x1024 .f32)
    (p : Fin 256) (q : Fin 1024) : EReal :=
  (((∑ k : Fin 1024, xb (ix2 p k) * w (ix2 k q)) + ∑ k : Fin 1024, hb (ix2 p k) * u (ix2 k q))
    + ∑ k : Fin 256, sb (ix2 p k) * s (ix2 k q)) + b (ix2 (0 : Fin 1) q)

/-- The body's expression for a gate — three products into zero accumulators added, plus the broadcast bias row —
    read at (p, q). -/
theorem gate_read (xb hb : FVec Ideal S256x1024 .bf16) (sb : FVec Ideal S256x256 .bf16)
    (w u : FVec Ideal S1024x1024 .bf16) (s : FVec Ideal S256x1024 .bf16) (b : FVec Ideal S1x1024 .f32)
    (p : Fin 256) (q : Fin 1024) :
    addf (addf (addf
        (matmul dot_S256x1024_S1024x1024_S256x1024_1_0_0_1_n_n none xb (shapeCast S1024x1024 w shapeCasts_S1024x1024_S1024x1024) (constant (F := Ideal) S256x1024 .f32 0x00000000#32))
        (matmul dot_S256x1024_S1024x1024_S256x1024_1_0_0_1_n_n none hb (shapeCast S1024x1024 u shapeCasts_S1024x1024_S1024x1024) (constant (F := Ideal) S256x1024 .f32 0x00000000#32)))
        (matmul dot_S256x256_S256x1024_S256x1024_1_0_0_1_n_n none sb (shapeCast S256x1024 s shapeCasts_S256x1024_S256x1024) (constant (F := Ideal) S256x1024 .f32 0x00000000#32)))
      (broadcastTo S256x1024 (shapeCast S1x1024 b shapeCasts_S1x1024_S1x1024) broadcasts_S1x1024_S256x1024) (ix2 p q)
    = gsum xb hb sb w u s b p q := by
  rw [addf_apply, addf_apply, addf_apply, shapeCast_self, shapeCast_self, shapeCast_self, shapeCast_self,
    broadcastTo_1b_ab_apply]
  unfold gsum
  refine congrArg₂ (· + ·) (congrArg₂ (· + ·) (congrArg₂ (· + ·) ?_ ?_) ?_) rfl
  · exact plain_matmul_zero_apply xb w p q
  · exact plain_matmul_zero_apply hb u p q
  · exact plain_matmul_zero_apply sb s p q

/-- The hybrid forget gate at (p, q): the logistic function of one row-by-column sum plus the bias row's entry. -/
theorem pay5_read (v6 : FVec Ideal S256x1024 .f32) (v9 : FVec Ideal S1024x1024 .bf16) (v12 : FVec Ideal S1x1024 .f32)
    (p : Fin 256) (q : Fin 1024) :
    k0_pay5 (F := Ideal) v6 v9 v12 (ix2 p q)
      = Ideal.logistic ((∑ k : Fin 1024, v6 (ix2 p k) * v9 (ix2 k q)) + v12 (ix2 (0 : Fin 1) q)) := by
  unfold k0_pay5
  refine congrArg Ideal.logistic ?_
  show addf _ _ (ix2 p q) = _
  rw [addf_apply, shapeCast_self, shapeCast_self, broadcastTo_1b_ab_apply]
  exact congrArg₂ (· + ·) (plain_matmul_zero_apply _ v9 p q) rfl

/-- The first forget gate at (p, q). -/
theorem pay6_read (v0 v2 : FVec Ideal S256x1024 .f32) (v4 : FVec Ideal S256x256 .f32)
    (v17 v20 : FVec Ideal S1024x1024 .bf16) (v24 : FVec Ideal S256x1024 .bf16) (v28 : FVec Ideal S1x1024 .f32)
    (p : Fin 256) (q : Fin 1024) :
    k0_pay6 (F := Ideal) v0 v2 v4 v17 v20 v24 v28 (ix2 p q) = Ideal.logistic (gsum v0 v2 v4 v17 v20 v24 v28 p q) := by
  unfold k0_pay6
  exact congrArg Ideal.logistic (gate_read (k0_pay2 v0) (k0_pay3 v2) (k0_pay4 v4) v17 v20 v24 v28 p q)

/-- The new cell state at (p, q): the two forget gates added, times the previous state, plus the input gate times
    the candidate. -/
theorem pay7_read (v1 v3 : FVec Ideal S256x1024 .bf16) (v5 : FVec Ideal S256x256 .bf16) (v8 v16 v32 : FVec Ideal S256x1024 .f32)
    (v35 v38 : FVec Ideal S1024x1024 .bf16) (v42 : FVec Ideal S256x1024 .bf16) (v46 : FVec Ideal S1x1024 .f32)
    (v51 v54 : FVec Ideal S1024x1024 .bf16) (v58 : FVec Ideal S256x1024 .bf16) (v62 : FVec Ideal S1x1024 .f32)
    (p : Fin 256) (q : Fin 1024) :
    k0_pay7 (F := Ideal) v1 v3 v5 v8 v16 v32 v35 v38 v42 v46 v51 v54 v58 v62 (ix2 p q)
      = (v32 (ix2 p q) + v16 (ix2 p q)) * v8 (ix2 p q)
        + Ideal.logistic (gsum v1 v3 v5 v35 v38 v42 v46 p q) * Ideal.tanh (gsum v1 v3 v5 v51 v54 v58 v62 p q) := by
  unfold k0_pay7
  exact congrArg₂ (· + ·) rfl (congrArg₂ (· * ·)
    (congrArg Ideal.logistic (gate_read v1 v3 v5 v35 v38 v42 v46 p q))
    (congrArg Ideal.tanh (gate_read v1 v3 v5 v51 v54 v58 v62 p q)))

/-- The new hidden state at (p, q): the hyperbolic tangent of the new cell state times the output gate. -/
theorem pay1_read (v1 v3 : FVec Ideal S256x1024 .bf16) (v5 : FVec Ideal S256x256 .bf16) (v68 : FVec Ideal S256x1024 .f32)
    (v69 v72 : FVec Ideal S1024x1024 .bf16) (v76 : FVec Ideal S256x1024 .bf16) (v80 : FVec Ideal S1x1024 .f32)
    (p : Fin 256) (q : Fin 1024) :
    k0_pay1 (F := Ideal) v1 v3 v5 v68 v69 v72 v76 v80 (ix2 p q)
      = Ideal.tanh (v68 (ix2 p q)) * Ideal.logistic (gsum v1 v3 v5 v69 v72 v76 v80 p q) := by
  unfold k0_pay1
  exact congrArg₂ (· * ·) rfl (congrArg Ideal.logistic (gate_read v1 v3 v5 v69 v72 v76 v80 p q))

/-! ## One point's blocks against the whole arrays -/

/-- A gate over one point's blocks is the specification's pre-activation at the point's row, when the row blocks hold
    that row of the three batch arrays and the weight blocks hold column j of the weights and the summed biases. -/
theorem gsum_eq_pre (a : Cell.Args) (bx bh : FVec Ideal S256x1024 .bf16) (bs : FVec Ideal S256x256 .bf16)
    (w u : FVec Ideal S1024x1024 .bf16) (s : FVec Ideal S256x1024 .bf16) (b : FVec Ideal S1x1024 .f32)
    (r : Fin 8192) (p : Fin 256) (q : Fin 1024) (j : Fin 4096)
    (hx : ∀ k : Fin 1024, bx (ix2 p k) = a.x (ix2 r k)) (hh : ∀ k : Fin 1024, bh (ix2 p k) = a.htm (ix2 r k))
    (hs : ∀ k : Fin 256, bs (ix2 p k) = a.spk (ix2 r k))
    (hw : ∀ k : Fin 1024, w (ix2 k q) = a.Ww (ix2 k j)) (hu : ∀ k : Fin 1024, u (ix2 k q) = a.Uw (ix2 k j))
    (hS : ∀ k : Fin 256, s (ix2 k q) = a.Sw (ix2 k j))
    (hb : b (ix2 (0 : Fin 1) q) = (a.Wb (ix1 j) + a.Ub (ix1 j)) + a.Sb (ix1 j)) :
    gsum bx bh bs w u s b p q = Cell.pre a r j := by
  unfold gsum Cell.pre Cell.dots
  refine congrArg₂ (· + ·) (congrArg₂ (· + ·) (congrArg₂ (· + ·) ?_ ?_) ?_) hb
  · exact Finset.sum_congr rfl fun k _ => by rw [hx k, hw k]
  · exact Finset.sum_congr rfl fun k _ => by rw [hh k, hu k]
  · exact Finset.sum_congr rfl fun k _ => by rw [hs k, hS k]

/-- The gate whose weight columns start at o, over the loads the body makes of the resident weight blocks. -/
theorem gate_at (a : Cell.Args) (bx bh : FVec Ideal S256x1024 .bf16) (bs : FVec Ideal S256x256 .bf16)
    (x5 x6 : Vec Ideal S1024x4096 .bf16) (x7 : Vec Ideal S256x4096 .bf16) (x9 : Vec Ideal S1x4096 .f32)
    (r : Fin 8192) (p : Fin 256) (q : Fin 1024) (o : ℕ) (ho : o + 1024 ≤ 4096)
    (inbW : ∀ d, (![0, o] : Fin 2 → ℕ) d + S1024x1024.size d ≤ S1024x4096.size d)
    (inbS : ∀ d, (![0, o] : Fin 2 → ℕ) d + S256x1024.size d ≤ S256x4096.size d)
    (inbB : ∀ d, (![0, o] : Fin 2 → ℕ) d + S1x1024.size d ≤ S1x4096.size d)
    (hx : ∀ k : Fin 1024, bx (ix2 p k) = a.x (ix2 r k)) (hh : ∀ k : Fin 1024, bh (ix2 p k) = a.htm (ix2 r k))
    (hs : ∀ k : Fin 256, bs (ix2 p k) = a.spk (ix2 r k))
    (h5 : ∀ (k : Fin 1024) (j : Fin 4096), x5 (ix2 k j) = a.Ww (ix2 k j))
    (h6 : ∀ (k : Fin 1024) (j : Fin 4096), x6 (ix2 k j) = a.Uw (ix2 k j))
    (h7 : ∀ (k : Fin 256) (j : Fin 4096), x7 (ix2 k j) = a.Sw (ix2 k j))
    (h9 : ∀ j : Fin 4096, x9 (ix2 (0 : Fin 1) j) = (a.Wb (ix1 j) + a.Ub (ix1 j)) + a.Sb (ix1 j)) :
    gsum bx bh bs
        (View.ld (Val := Elt Ideal) x5 (Rect.unit (s := S1024x4096) ![0, o] S1024x1024.size inbW))
        (View.ld (Val := Elt Ideal) x6 (Rect.unit (s := S1024x4096) ![0, o] S1024x1024.size inbW))
        (View.ld (Val := Elt Ideal) x7 (Rect.unit (s := S256x4096) ![0, o] S256x1024.size inbS))
        (View.ld (Val := Elt Ideal) x9 (Rect.unit (s := S1x4096) ![0, o] S1x1024.size inbB)) p q
      = Cell.pre a r (gcol o ho q) :=
  gsum_eq_pre a bx bh bs _ _ _ _ r p q (gcol o ho q) hx hh hs
    (fun k => (ld_cols x5 o ho inbW k q).trans (h5 k _)) (fun k => (ld_cols x6 o ho inbW k q).trans (h6 k _))
    (fun k => (ld_cols x7 o ho inbS k q).trans (h7 k _)) ((ld_cols x9 o ho inbB 0 q).trans (h9 _))

section Point

variable (a : Cell.Args) (x0 x1 x2 : Vec Ideal S256x1024 .f32) (x3 : Vec Ideal S256x256 .f32) (x4 : Vec Ideal S256x1024 .f32)
  (x5 x6 : Vec Ideal S1024x4096 .bf16) (x7 : Vec Ideal S256x4096 .bf16) (x8 : Vec Ideal S1024x1024 .bf16)
  (x9 : Vec Ideal S1x4096 .f32) (x10 : Vec Ideal S1x1024 .f32) (r : Fin 8192) (p : Fin 256) (q : Fin 1024)
  (h0 : ∀ k : Fin 1024, x0 (ix2 p k) = a.x (ix2 r k))
  (h1 : ∀ k : Fin 1024, x1 (ix2 p k) = a.htm (ix2 r k))
  (h2 : ∀ k : Fin 1024, x2 (ix2 p k) = a.ztm (ix2 r k))
  (h3 : ∀ k : Fin 256, x3 (ix2 p k) = a.spk (ix2 r k))
  (h4 : x4 (ix2 p q) = a.ctm (ix2 r q))
  (h5 : ∀ (k : Fin 1024) (j : Fin 4096), x5 (ix2 k j) = a.Ww (ix2 k j))
  (h6 : ∀ (k : Fin 1024) (j : Fin 4096), x6 (ix2 k j) = a.Uw (ix2 k j))
  (h7 : ∀ (k : Fin 256) (j : Fin 4096), x7 (ix2 k j) = a.Sw (ix2 k j))
  (h8 : ∀ (k : Fin 1024) (j : Fin 1024), x8 (ix2 k j) = a.Vw (ix2 k j))
  (h9 : ∀ j : Fin 4096, x9 (ix2 (0 : Fin 1) j) = (a.Wb (ix1 j) + a.Ub (ix1 j)) + a.Sb (ix1 j))
  (h10 : ∀ j : Fin 1024, x10 (ix2 (0 : Fin 1) j) = a.Vb (ix1 j))

include h0 h1 h2 h3 h4 h5 h6 h7 h8 h9 h10

/-- The body's new cell state, over the point's eleven input blocks, at (p, q): the specification's at the point's row r
    — when the row blocks hold row r of the batch arrays at their row p, the weight blocks hold the weights, and the
    two bias rows hold the summed gate biases and the hybrid gate's bias. -/
theorem c_read :
    k0_pay7 (F := Ideal) (k0_pay2 (View.ld x0 r0_0)) (k0_pay3 (View.ld x1 r0_0)) (k0_pay4 (View.ld x3 r0_1)) (View.ld x4 r0_0)
        (k0_pay5 (View.ld x2 r0_0) (View.ld x8 r0_2) (View.ld x10 r0_3))
        (k0_pay6 (View.ld x0 r0_0) (View.ld x1 r0_0) (View.ld x3 r0_1) (View.ld x5 r0_4) (View.ld x6 r0_4) (View.ld x7 r0_5) (View.ld x9 r0_6))
        (View.ld x5 r0_7) (View.ld x6 r0_7) (View.ld x7 r0_8) (View.ld x9 r0_9)
        (View.ld x5 r0_10) (View.ld x6 r0_10) (View.ld x7 r0_11) (View.ld x9 r0_12) (ix2 p q)
      = Cell.cAt a r q := by
  have e0 : View.ld (Val := Elt Ideal) x0 r0_0 = x0 := View.ld_unit_zero hz _ x0
  have e1 : View.ld (Val := Elt Ideal) x1 r0_0 = x1 := View.ld_unit_zero hz _ x1
  have e2 : View.ld (Val := Elt Ideal) x2 r0_0 = x2 := View.ld_unit_zero hz _ x2
  have e3 : View.ld (Val := Elt Ideal) x3 r0_1 = x3 := View.ld_unit_zero hz _ x3
  have e4 : View.ld (Val := Elt Ideal) x4 r0_0 = x4 := View.ld_unit_zero hz _ x4
  have e8 : View.ld (Val := Elt Ideal) x8 r0_2 = x8 := View.ld_unit_zero hz _ x8
  have e10 : View.ld (Val := Elt Ideal) x10 r0_3 = x10 := View.ld_unit_zero hz _ x10
  have g0 : ∀ k : Fin 1024, View.ld (Val := Elt Ideal) x0 r0_0 (ix2 p k) = a.x (ix2 r k) := fun k => (congrFun e0 _).trans (h0 k)
  have g1 : ∀ k : Fin 1024, View.ld (Val := Elt Ideal) x1 r0_0 (ix2 p k) = a.htm (ix2 r k) := fun k => (congrFun e1 _).trans (h1 k)
  have g3 : ∀ k : Fin 256, View.ld (Val := Elt Ideal) x3 r0_1 (ix2 p k) = a.spk (ix2 r k) := fun k => (congrFun e3 _).trans (h3 k)
  rw [pay7_read, pay6_read, pay5_read]
  unfold Cell.cAt Cell.hyb
  refine congrArg₂ (· + ·) (congrArg₂ (· * ·) (congrArg₂ (· + ·) (congrArg Ideal.logistic ?_) (congrArg Ideal.logistic ?_))
    ((congrFun e4 _).trans h4)) (congrArg₂ (· * ·) (congrArg Ideal.logistic ?_) (congrArg Ideal.tanh ?_))
  · exact gate_at a _ _ _ x5 x6 x7 x9 r p q 0 (by decide) _ _ _ g0 g1 g3 h5 h6 h7 h9
  · exact congrArg₂ (· + ·) (Finset.sum_congr rfl fun k _ => congrArg₂ (· * ·) ((congrFun e2 _).trans (h2 k)) ((congrFun e8 _).trans (h8 k q)))
      ((congrFun e10 _).trans (h10 q))
  · exact gate_at a _ _ _ x5 x6 x7 x9 r p q 1024 (by decide) _ _ _ g0 g1 g3 h5 h6 h7 h9
  · exact gate_at a _ _ _ x5 x6 x7 x9 r p q 3072 (by decide) _ _ _ g0 g1 g3 h5 h6 h7 h9

/-- The first output block after the body, at (p, q): the new cell state at row r. -/
theorem out11_read : out0_11 (F := Ideal) x0 x1 x2 x3 x4 x5 x6 x7 x8 x9 x10 (ix2 p q) = Cell.cAt a r q := by
  unfold out0_11
  rw [View.canon_unit_zero hz]
  exact c_read a x0 x1 x2 x3 x4 x5 x6 x7 x8 x9 x10 r p q h0 h1 h2 h3 h4 h5 h6 h7 h8 h9 h10

/-- The second output block after the body, at (p, q): the new hidden state at row r. -/
theorem out12_read : out0_12 (F := Ideal) x0 x1 x2 x3 x4 x5 x6 x7 x8 x9 x10 (ix2 p q) = Cell.hAt a r q := by
  have e0 : View.ld (Val := Elt Ideal) x0 r0_0 = x0 := View.ld_unit_zero hz _ x0
  have e1 : View.ld (Val := Elt Ideal) x1 r0_0 = x1 := View.ld_unit_zero hz _ x1
  have e3 : View.ld (Val := Elt Ideal) x3 r0_1 = x3 := View.ld_unit_zero hz _ x3
  have g0 : ∀ k : Fin 1024, View.ld (Val := Elt Ideal) x0 r0_0 (ix2 p k) = a.x (ix2 r k) := fun k => (congrFun e0 _).trans (h0 k)
  have g1 : ∀ k : Fin 1024, View.ld (Val := Elt Ideal) x1 r0_0 (ix2 p k) = a.htm (ix2 r k) := fun k => (congrFun e1 _).trans (h1 k)
  have g3 : ∀ k : Fin 256, View.ld (Val := Elt Ideal) x3 r0_1 (ix2 p k) = a.spk (ix2 r k) := fun k => (congrFun e3 _).trans (h3 k)
  unfold out0_12
  rw [View.canon_unit_zero hz, pay1_read]
  unfold Cell.hAt
  refine congrArg₂ (· * ·) (congrArg Ideal.tanh ?_) (congrArg Ideal.logistic ?_)
  · exact c_read a x0 x1 x2 x3 x4 x5 x6 x7 x8 x9 x10 r p q h0 h1 h2 h3 h4 h5 h6 h7 h8 h9 h10
  · exact gate_at a _ _ _ x5 x6 x7 x9 r p q 2048 (by decide) _ _ _ g0 g1 g3 h5 h6 h7 h9

end Point

end Cert.KernelIdeal.Block

end
-- ==== Proof.KernelValue.lean ====
/-
  The two result arrays after the kernel's run, as the specification's two arrays of the thirteen arguments.

  The grid has 32 points; point t stages rows 256t … 256t+255 of the five batch arrays and of the two results, and the
  whole of the six resident arrays, which the host wrote before the launch: the four weight matrices narrowed to bf16
  (the identity on extended reals), the three gate biases added and laid out as one row, the hybrid bias as one row.
  So the block point t writes back is rows 256t … of the specification's array, and the 32 blocks cover every row.
-/
import proofs.«162286_j20504173871325_2_alg».proof.Proof.Gen.KernelIdeal.Value
import proofs.«162286_j20504173871325_2_alg».proof.Proof.KernelBlock
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.KernelIdeal.Value Cert.Cell

variable (m : (ℓ : Loc nD τ sig) → Buf (Elt Ideal) ℓ) (ρ : Dev nD → PrngReg)

/-- Core c's thirteen argument arrays at launch. -/
def args (c : Dev nD) : Cell.Args where
  x := m ((c : Thread nD τ).loc main_arg0)
  ctm := m ((c : Thread nD τ).loc main_arg1)
  htm := m ((c : Thread nD τ).loc main_arg2)
  ztm := m ((c : Thread nD τ).loc main_arg3)
  spk := m ((c : Thread nD τ).loc main_arg4)
  Ww := m ((c : Thread nD τ).loc main_arg5)
  Wb := m ((c : Thread nD τ).loc main_arg6)
  Uw := m ((c : Thread nD τ).loc main_arg7)
  Ub := m ((c : Thread nD τ).loc main_arg8)
  Vw := m ((c : Thread nD τ).loc main_arg9)
  Vb := m ((c : Thread nD τ).loc main_arg10)
  Sw := m ((c : Thread nD τ).loc main_arg11)
  Sb := m ((c : Thread nD τ).loc main_arg12)

/-- Row p of point t's block is row 256t + p of the array. -/
def row (t : Fin cfg0.N) (p : Fin 256) : Fin 8192 :=
  ⟨t.val * 256 + p.val, by have := t.isLt; have hN : cfg0.N = 32 := N_0; have := p.isLt; omega⟩

theorem row_val (t : Fin cfg0.N) (p : Fin 256) : (row t p).val = t.val * 256 + p.val := rfl

/-- The printed index maps, decided over the 32 points: the batch arrays' and the results' blocks move down the rows with
    the point, the resident arrays' block is always the first (and only) one. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

/-! ## The arrays the host wrote before the launch -/

theorem V_v0 (c : Dev nD) : (V m c main_v0 : Vec Ideal S1024x4096 .bf16) = m ((c : Thread nD τ).loc main_arg5) := by
  dsimp only [Gen.V, Gen.hostOps0]; after_results; rfl
theorem V_v1 (c : Dev nD) : (V m c main_v1 : Vec Ideal S1024x4096 .bf16) = m ((c : Thread nD τ).loc main_arg7) := by
  dsimp only [Gen.V, Gen.hostOps0]; after_results; rfl
theorem V_v2 (c : Dev nD) : (V m c main_v2 : Vec Ideal S256x4096 .bf16) = m ((c : Thread nD τ).loc main_arg11) := by
  dsimp only [Gen.V, Gen.hostOps0]; after_results; rfl
theorem V_v3 (c : Dev nD) : (V m c main_v3 : Vec Ideal S1024x1024 .bf16) = m ((c : Thread nD τ).loc main_arg9) := by
  dsimp only [Gen.V, Gen.hostOps0]; after_results; rfl
/-- The one bias row: the three gate biases added, as a [1, 4096] array. -/
theorem V_v6 (c : Dev nD) : (V m c main_v6 : Vec Ideal S1x4096 .f32)
    = (shapeCast S1x4096 (addf (F := Ideal) (addf (F := Ideal) (m ((c : Thread nD τ).loc main_arg6) : FVec Ideal S4096 .f32) (m ((c : Thread nD τ).loc main_arg8) : FVec Ideal S4096 .f32)) (m ((c : Thread nD τ).loc main_arg12) : FVec Ideal S4096 .f32)) shapeCasts_S4096_S1x4096 : FVec Ideal S1x4096 .f32) := by
  dsimp only [Gen.V, Gen.hostOps0]; after_results; rfl
/-- The hybrid gate's bias as a [1, 1024] array. -/
theorem V_v7 (c : Dev nD) : (V m c main_v7 : Vec Ideal S1x1024 .f32)
    = (shapeCast S1x1024 (m ((c : Thread nD τ).loc main_arg10) : FVec Ideal S1024 .f32) shapeCasts_S1024_S1x1024 : FVec Ideal S1x1024 .f32) := by
  dsimp only [Gen.V, Gen.hostOps0]; after_results; rfl

/-! ## The windows' blocks at a point, entry by entry -/

/-- Window 0's block at point t holds rows 256t … 256t+255 of its array. -/
theorem blk0 (c : Dev nD) (t : Fin cfg0.N) (p : Fin 256) (k : Fin 1024) :
    (iblk m c 0 t : Vec Ideal S256x1024 .f32) (ix2 p k) = (args m c).x (ix2 (row t p) k) := by
  unfold iblk
  rw [View.read_apply]
  show V m c main_arg0 (((cfg0.win 0).blk t).view.emb (ix2 p k)) = m ((c : Thread nD τ).loc main_arg0) (ix2 (row t p) k)
  rw [V_main_arg0]
  refine congrArg _ (funext fun d => Fin.ext ?_)
  have e := idx_facts t
  match d with
  | ⟨0, _⟩ => show win0_0.index t (0 : Fin 2) * 256 + 1 * p.val = t.val * 256 + p.val; rw [e.1]; omega
  | ⟨1, _⟩ => show win0_0.index t (1 : Fin 2) * 1024 + 1 * k.val = k.val; rw [e.2.1]; omega

/-- Window 1's block at point t holds rows 256t … 256t+255 of its array. -/
theorem blk1 (c : Dev nD) (t : Fin cfg0.N) (p : Fin 256) (k : Fin 1024) :
    (iblk m c 1 t : Vec Ideal S256x1024 .f32) (ix2 p k) = (args m c).htm (ix2 (row t p) k) := by
  unfold iblk
  rw [View.read_apply]
  show V m c main_arg2 (((cfg0.win 1).blk t).view.emb (ix2 p k)) = m ((c : Thread nD τ).loc main_arg2) (ix2 (row t p) k)
  rw [V_main_arg2]
  refine congrArg _ (funext fun d => Fin.ext ?_)
  have e := idx_facts t
  match d with
  | ⟨0, _⟩ => show win0_1.index t (0 : Fin 2) * 256 + 1 * p.val = t.val * 256 + p.val; rw [e.2.2.1]; omega
  | ⟨1, _⟩ => show win0_1.index t (1 : Fin 2) * 1024 + 1 * k.val = k.val; rw [e.2.2.2.1]; omega

/-- Window 2's block at point t holds rows 256t … 256t+255 of its array. -/
theorem blk2 (c : Dev nD) (t : Fin cfg0.N) (p : Fin 256) (k : Fin 1024) :
    (iblk m c 2 t : Vec Ideal S256x1024 .f32) (ix2 p k) = (args m c).ztm (ix2 (row t p) k) := by
  unfold iblk
  rw [View.read_apply]
  show V m c main_arg3 (((cfg0.win 2).blk t).view.emb (ix2 p k)) = m ((c : Thread nD τ).loc main_arg3) (ix2 (row t p) k)
  rw [V_main_arg3]
  refine congrArg _ (funext fun d => Fin.ext ?_)
  have e := idx_facts t
  match d with
  | ⟨0, _⟩ => show win0_2.index t (0 : Fin 2) * 256 + 1 * p.val = t.val * 256 + p.val; rw [e.2.2.2.2.1]; omega
  | ⟨1, _⟩ => show win0_2.index t (1 : Fin 2) * 1024 + 1 * k.val = k.val; rw [e.2.2.2.2.2.1]; omega

/-- Window 3's block at point t holds rows 256t … 256t+255 of its array. -/
theorem blk3 (c : Dev nD) (t : Fin cfg0.N) (p : Fin 256) (k : Fin 256) :
    (iblk m c 3 t : Vec Ideal S256x256 .f32) (ix2 p k) = (args m c).spk (ix2 (row t p) k) := by
  unfold iblk
  rw [View.read_apply]
  show V m c main_arg4 (((cfg0.win 3).blk t).view.emb (ix2 p k)) = m ((c : Thread nD τ).loc main_arg4) (ix2 (row t p) k)
  rw [V_main_arg4]
  refine congrArg _ (funext fun d => Fin.ext ?_)
  have e := idx_facts t
  match d with
  | ⟨0, _⟩ => show win0_3.index t (0 : Fin 2) * 256 + 1 * p.val = t.val * 256 + p.val; rw [e.2.2.2.2.2.2.1]; omega
  | ⟨1, _⟩ => show win0_3.index t (1 : Fin 2) * 256 + 1 * k.val = k.val; rw [e.2.2.2.2.2.2.2.1]; omega

/-- Window 4's block at point t holds rows 256t … 256t+255 of its array. -/
theorem blk4 (c : Dev nD) (t : Fin cfg0.N) (p : Fin 256) (k : Fin 1024) :
    (iblk m c 4 t : Vec Ideal S256x1024 .f32) (ix2 p k) = (args m c).ctm (ix2 (row t p) k) := by
  unfold iblk
  rw [View.read_apply]
  show V m c main_arg1 (((cfg0.win 4).blk t).view.emb (ix2 p k)) = m ((c : Thread nD τ).loc main_arg1) (ix2 (row t p) k)
  rw [V_main_arg1]
  refine congrArg _ (funext fun d => Fin.ext ?_)
  have e := idx_facts t
  match d with
  | ⟨0, _⟩ => show win0_4.index t (0 : Fin 2) * 256 + 1 * p.val = t.val * 256 + p.val; rw [e.2.2.2.2.2.2.2.2.1]; omega
  | ⟨1, _⟩ => show win0_4.index t (1 : Fin 2) * 1024 + 1 * k.val = k.val; rw [e.2.2.2.2.2.2.2.2.2.1]; omega

/-- Window 5 is resident: its block at every point is the whole array, which the host wrote from an argument by a
    change of float format only. -/
theorem blk5 (c : Dev nD) (t : Fin cfg0.N) (k : Fin 1024) (j : Fin 4096) :
    (iblk m c 5 t : Vec Ideal S1024x4096 .bf16) (ix2 k j) = (args m c).Ww (ix2 k j) := by
  unfold iblk
  rw [View.read_apply]
  show V m c main_v0 (((cfg0.win 5).blk t).view.emb (ix2 k j)) = m ((c : Thread nD τ).loc main_arg5) (ix2 k j)
  rw [V_v0]
  refine congrArg _ (funext fun d => Fin.ext ?_)
  have e := idx_facts t
  match d with
  | ⟨0, _⟩ => show win0_5.index t (0 : Fin 2) * 1024 + 1 * k.val = k.val; rw [e.2.2.2.2.2.2.2.2.2.2.1]; omega
  | ⟨1, _⟩ => show win0_5.index t (1 : Fin 2) * 4096 + 1 * j.val = j.val; rw [e.2.2.2.2.2.2.2.2.2.2.2.1]; omega

/-- Window 6 is resident: its block at every point is the whole array, which the host wrote from an argument by a
    change of float format only. -/
theorem blk6 (c : Dev nD) (t : Fin cfg0.N) (k : Fin 1024) (j : Fin 4096) :
    (iblk m c 6 t : Vec Ideal S1024x4096 .bf16) (ix2 k j) = (args m c).Uw (ix2 k j) := by
  unfold iblk
  rw [View.read_apply]
  show V m c main_v1 (((cfg0.win 6).blk t).view.emb (ix2 k j)) = m ((c : Thread nD τ).loc main_arg7) (ix2 k j)
  rw [V_v1]
  refine congrArg _ (funext fun d => Fin.ext ?_)
  have e := idx_facts t
  match d with
  | ⟨0, _⟩ => show win0_6.index t (0 : Fin 2) * 1024 + 1 * k.val = k.val; rw [e.2.2.2.2.2.2.2.2.2.2.2.2.1]; omega
  | ⟨1, _⟩ => show win0_6.index t (1 : Fin 2) * 4096 + 1 * j.val = j.val; rw [e.2.2.2.2.2.2.2.2.2.2.2.2.2.1]; omega

/-- Window 7 is resident: its block at every point is the whole array, which the host wrote from an argument by a
    change of float format only. -/
theorem blk7 (c : Dev nD) (t : Fin cfg0.N) (k : Fin 256) (j : Fin 4096) :
    (iblk m c 7 t : Vec Ideal S256x4096 .bf16) (ix2 k j) = (args m c).Sw (ix2 k j) := by
  unfold iblk
  rw [View.read_apply]
  show V m c main_v2 (((cfg0.win 7).blk t).view.emb (ix2 k j)) = m ((c : Thread nD τ).loc main_arg11) (ix2 k j)
  rw [V_v2]
  refine congrArg _ (funext fun d => Fin.ext ?_)
  have e := idx_facts t
  match d with
  | ⟨0, _⟩ => show win0_7.index t (0 : Fin 2) * 256 + 1 * k.val = k.val; rw [e.2.2.2.2.2.2.2.2.2.2.2.2.2.2.1]; omega
  | ⟨1, _⟩ => show win0_7.index t (1 : Fin 2) * 4096 + 1 * j.val = j.val; rw [e.2.2.2.2.2.2.2.2.2.2.2.2.2.2.2.1]; omega

/-- Window 8 is resident: its block at every point is the whole array, which the host wrote from an argument by a
    change of float format only. -/
theorem blk8 (c : Dev nD) (t : Fin cfg0.N) (k : Fin 1024) (j : Fin 1024) :
    (iblk m c 8 t : Vec Ideal S1024x1024 .bf16) (ix2 k j) = (args m c).Vw (ix2 k j) := by
  unfold iblk
  rw [View.read_apply]
  show V m c main_v3 (((cfg0.win 8).blk t).view.emb (ix2 k j)) = m ((c : Thread nD τ).loc main_arg9) (ix2 k j)
  rw [V_v3]
  refine congrArg _ (funext fun d => Fin.ext ?_)
  have e := idx_facts t
  match d with
  | ⟨0, _⟩ => show win0_8.index t (0 : Fin 2) * 1024 + 1 * k.val = k.val; rw [e.2.2.2.2.2.2.2.2.2.2.2.2.2.2.2.2.1]; omega
  | ⟨1, _⟩ => show win0_8.index t (1 : Fin 2) * 1024 + 1 * j.val = j.val; rw [e.2.2.2.2.2.2.2.2.2.2.2.2.2.2.2.2.2.1]; omega

/-- Window 9's block is the one bias row: at column j the three gate biases at j, added. -/
theorem blk9 (c : Dev nD) (t : Fin cfg0.N) (j : Fin 4096) :
    (iblk m c 9 t : Vec Ideal S1x4096 .f32) (ix2 (0 : Fin 1) j)
      = ((args m c).Wb (ix1 j) + (args m c).Ub (ix1 j)) + (args m c).Sb (ix1 j) := by
  unfold iblk
  rw [View.read_apply]
  show V m c main_v6 (((cfg0.win 9).blk t).view.emb (ix2 (0 : Fin 1) j)) = _
  rw [V_v6]
  have e := idx_facts t
  have hi : ((cfg0.win 9).blk t).view.emb (ix2 (0 : Fin 1) j) = ix2 (0 : Fin 1) j := funext fun d => Fin.ext (by
    match d with
    | ⟨0, _⟩ => show win0_9.index t (0 : Fin 2) * 1 + 1 * 0 = 0; rw [e.2.2.2.2.2.2.2.2.2.2.2.2.2.2.2.2.2.2.1]
    | ⟨1, _⟩ => show win0_9.index t (1 : Fin 2) * 4096 + 1 * j.val = j.val; rw [e.2.2.2.2.2.2.2.2.2.2.2.2.2.2.2.2.2.2.2.1]; omega)
  rw [hi, shapeCast_a_1a_apply]
  rfl

/-- Window 10's block is the hybrid gate's bias row. -/
theorem blk10 (c : Dev nD) (t : Fin cfg0.N) (j : Fin 1024) :
    (iblk m c 10 t : Vec Ideal S1x1024 .f32) (ix2 (0 : Fin 1) j) = (args m c).Vb (ix1 j) := by
  unfold iblk
  rw [View.read_apply]
  show V m c main_v7 (((cfg0.win 10).blk t).view.emb (ix2 (0 : Fin 1) j)) = _
  rw [V_v7]
  have e := idx_facts t
  have hi : ((cfg0.win 10).blk t).view.emb (ix2 (0 : Fin 1) j) = ix2 (0 : Fin 1) j := funext fun d => Fin.ext (by
    match d with
    | ⟨0, _⟩ => show win0_10.index t (0 : Fin 2) * 1 + 1 * 0 = 0; rw [e.2.2.2.2.2.2.2.2.2.2.2.2.2.2.2.2.2.2.2.2.1]
    | ⟨1, _⟩ => show win0_10.index t (1 : Fin 2) * 1024 + 1 * j.val = j.val; rw [e.2.2.2.2.2.2.2.2.2.2.2.2.2.2.2.2.2.2.2.2.2.1]; omega)
  rw [hi, shapeCast_a_1a_apply]
  rfl

/-! ## What a point writes back, the cover, the arrays after the run -/

/-- Entry (p, q) of point t's output block sits at (256t + p, q) of the result array. -/
theorem emb11 (t : Fin cfg0.N) (p : Fin 256) (q : Fin 1024) :
    ((cfg0.win 11).blk t).view.emb (ix2 p q) = ix2 (row t p) q := funext fun d => Fin.ext (by
  have e := idx_facts t
  match d with
  | ⟨0, _⟩ => show win0_11.index t (0 : Fin 2) * 256 + 1 * p.val = t.val * 256 + p.val; rw [e.2.2.2.2.2.2.2.2.2.2.2.2.2.2.2.2.2.2.2.2.2.2.1]; omega
  | ⟨1, _⟩ => show win0_11.index t (1 : Fin 2) * 1024 + 1 * q.val = q.val; rw [e.2.2.2.2.2.2.2.2.2.2.2.2.2.2.2.2.2.2.2.2.2.2.2.1]; omega)

theorem emb12 (t : Fin cfg0.N) (p : Fin 256) (q : Fin 1024) :
    ((cfg0.win 12).blk t).view.emb (ix2 p q) = ix2 (row t p) q := funext fun d => Fin.ext (by
  have e := idx_facts t
  match d with
  | ⟨0, _⟩ => show win0_12.index t (0 : Fin 2) * 256 + 1 * p.val = t.val * 256 + p.val; rw [e.2.2.2.2.2.2.2.2.2.2.2.2.2.2.2.2.2.2.2.2.2.2.2.2.1]; omega
  | ⟨1, _⟩ => show win0_12.index t (1 : Fin 2) * 1024 + 1 * q.val = q.val; rw [e.2.2.2.2.2.2.2.2.2.2.2.2.2.2.2.2.2.2.2.2.2.2.2.2.2]; omega)

/-- What point t writes back to the first result is block t of the specification's cell-state array. -/
theorem flushed11_eq (c : Dev nD) (t : Fin cfg0.N) :
    (dats m 0 c).flushed 11 t = ((cfg0.win 11).blk t).view.read (Elt Ideal) (Cell.cT (args m c)) := by
  rw [Value.flushed11]
  refine funext fun (y : S256x1024.Idx) => ?_
  obtain ⟨p, q, rfl⟩ : ∃ (p : Fin 256) (q : Fin 1024), y = ix2 p q := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = Cell.cT (args m c) (((cfg0.win 11).blk t).view.emb (ix2 p q))
  rw [emb11 t p q, Cell.cT_ix2]
  exact Block.out11_read (args m c) (iblk m c 0 t) (iblk m c 1 t) (iblk m c 2 t) (iblk m c 3 t) (iblk m c 4 t) (iblk m c 5 t) (iblk m c 6 t) (iblk m c 7 t) (iblk m c 8 t) (iblk m c 9 t) (iblk m c 10 t)
    (row t p) p q (blk0 m c t p) (blk1 m c t p) (blk2 m c t p) (blk3 m c t p) (blk4 m c t p q) (blk5 m c t) (blk6 m c t) (blk7 m c t) (blk8 m c t) (blk9 m c t) (blk10 m c t)

/-- What point t writes back to the second result is block t of the specification's hidden-state array. -/
theorem flushed12_eq (c : Dev nD) (t : Fin cfg0.N) :
    (dats m 0 c).flushed 12 t = ((cfg0.win 12).blk t).view.read (Elt Ideal) (Cell.hT (args m c)) := by
  rw [Value.flushed12]
  refine funext fun (y : S256x1024.Idx) => ?_
  obtain ⟨p, q, rfl⟩ : ∃ (p : Fin 256) (q : Fin 1024), y = ix2 p q := ⟨y 0, y 1, eq_ix2 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = Cell.hT (args m c) (((cfg0.win 12).blk t).view.emb (ix2 p q))
  rw [emb12 t p q, Cell.hT_ix2]
  exact Block.out12_read (args m c) (iblk m c 0 t) (iblk m c 1 t) (iblk m c 2 t) (iblk m c 3 t) (iblk m c 4 t) (iblk m c 5 t) (iblk m c 6 t) (iblk m c 7 t) (iblk m c 8 t) (iblk m c 9 t) (iblk m c 10 t)
    (row t p) p q (blk0 m c t p) (blk1 m c t p) (blk2 m c t p) (blk3 m c t p) (blk4 m c t p q) (blk5 m c t) (blk6 m c t) (blk7 m c t) (blk8 m c t) (blk9 m c t) (blk10 m c t)

/-- An index of the first result is in point t's block iff each coordinate is in the block's range on its axis. -/
theorem mem_blk11 (t : Fin cfg0.N) (i : S8192x1024.Idx) :
    i ∈ ((cfg0.win 11).blk t).view.set ↔ ∀ d : Fin 2, win0_11.index t d * S256x1024.size d ≤ (i d).val ∧ (i d).val < win0_11.index t d * S256x1024.size d + S256x1024.size d := by
  show i ∈ ((View.whole main_v8_0).slice (win0_11.rect t)).set ↔ _
  rw [View.set_slice_whole, Rect.mem_set_unit]
  exact Iff.rfl

theorem mem_blk12 (t : Fin cfg0.N) (i : S8192x1024.Idx) :
    i ∈ ((cfg0.win 12).blk t).view.set ↔ ∀ d : Fin 2, win0_12.index t d * S256x1024.size d ≤ (i d).val ∧ (i d).val < win0_12.index t d * S256x1024.size d + S256x1024.size d := by
  show i ∈ ((View.whole main_v8_1).slice (win0_12.rect t)).set ↔ _
  rw [View.set_slice_whole, Rect.mem_set_unit]
  exact Iff.rfl

/-- Row r of the first result is in the block of point r / 256. -/
theorem cover11 (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 32 := N_0
  refine ⟨⟨(i 0).val / 256, by omega⟩, flush0_11 _, ?_⟩
  rw [mem_blk11]
  have e := idx_facts ⟨(i 0).val / 256, by omega⟩
  intro d
  match d with
  | ⟨0, _⟩ =>
    show win0_11.index ⟨(i 0).val / 256, _⟩ (0 : Fin 2) * 256 ≤ (i 0).val ∧ (i 0).val < win0_11.index ⟨(i 0).val / 256, _⟩ (0 : Fin 2) * 256 + 256
    rw [e.2.2.2.2.2.2.2.2.2.2.2.2.2.2.2.2.2.2.2.2.2.2.1]; show (i 0).val / 256 * 256 ≤ (i 0).val ∧ (i 0).val < (i 0).val / 256 * 256 + 256; omega
  | ⟨1, _⟩ =>
    show win0_11.index ⟨(i 0).val / 256, _⟩ (1 : Fin 2) * 1024 ≤ (i 1).val ∧ (i 1).val < win0_11.index ⟨(i 0).val / 256, _⟩ (1 : Fin 2) * 1024 + 1024
    rw [e.2.2.2.2.2.2.2.2.2.2.2.2.2.2.2.2.2.2.2.2.2.2.2.1]; omega

theorem cover12 (i : S8192x1024.Idx) : ∃ t : Fin cfg0.N, (cfg0.win 12).flush t = true ∧ i ∈ ((cfg0.win 12).blk t).view.set := by
  have hi0 : (i 0).val < 8192 := (i 0).isLt
  have hi1 : (i 1).val < 1024 := (i 1).isLt
  have hN : cfg0.N = 32 := N_0
  refine ⟨⟨(i 0).val / 256, by omega⟩, flush0_12 _, ?_⟩
  rw [mem_blk12]
  have e := idx_facts ⟨(i 0).val / 256, by omega⟩
  intro d
  match d with
  | ⟨0, _⟩ =>
    show win0_12.index ⟨(i 0).val / 256, _⟩ (0 : Fin 2) * 256 ≤ (i 0).val ∧ (i 0).val < win0_12.index ⟨(i 0).val / 256, _⟩ (0 : Fin 2) * 256 + 256
    rw [e.2.2.2.2.2.2.2.2.2.2.2.2.2.2.2.2.2.2.2.2.2.2.2.2.1]; show (i 0).val / 256 * 256 ≤ (i 0).val ∧ (i 0).val < (i 0).val / 256 * 256 + 256; omega
  | ⟨1, _⟩ =>
    show win0_12.index ⟨(i 0).val / 256, _⟩ (1 : Fin 2) * 1024 ≤ (i 1).val ∧ (i 1).val < win0_12.index ⟨(i 0).val / 256, _⟩ (1 : Fin 2) * 1024 + 1024
    rw [e.2.2.2.2.2.2.2.2.2.2.2.2.2.2.2.2.2.2.2.2.2.2.2.2.2]; omega

/-- The first result array after the run is the specification's cell-state array. -/
theorem final11 (c : Dev nD) : (dats m 0 c).arrAt 11 cfg0.N = Cell.cT (args m c) :=
  (dats m 0 c).arrAt_eq_of_cover 11 (Cell.cT (args m c)) (fun t _ => flushed11_eq m c t) cover11

/-- The second result array after the run is the specification's hidden-state array. -/
theorem final12 (c : Dev nD) : (dats m 0 c).arrAt 12 cfg0.N = Cell.hT (args m c) :=
  (dats m 0 c).arrAt_eq_of_cover 12 (Cell.hT (args m c)) (fun t _ => flushed12_eq m c t) cover12

/-- The kernel's run, read: the two results at the specification's arrays of the arguments, the arguments unchanged. -/
theorem run : θ_run defs (onTc (τ := τ) (main (F := Ideal))) ⟨m, fun _ => 0, ρ⟩ fun r => ∀ c : Dev nD,
      r.2.mem ((c : Thread nD τ).loc main_v8_0) = Cell.cT (args m c)
      ∧ r.2.mem ((c : Thread nD τ).loc main_v8_1) = Cell.hT (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final11 m c), (h c).2.1.trans (final12 m c), (h c).2.2⟩)
    (Value.run_blocks m ρ)

end Cert.KernelIdeal.Hand

end
-- ==== Proof.RefValue.lean ====
/-
  The reference's two results as the specification's two arrays of the thirteen arguments.

  The reference forms one [8192, 4096] array of gate pre-activations — each of the three matrix products with its own
  bias added, then the three added —, cuts it into the four gates' 1024 columns, and applies to each the logistic
  function spelt out as 1 / (1 + exp(-x)) (or the hyperbolic tangent, for the candidate); the new cell state is
  f·ctm + i·g + f'·ctm with f' the hybrid forget gate. Entry by entry these are the specification's: the biases regroup
  by commutativity and associativity, the spelt-out quotient IS the logistic function on the extended reals, and the
  two forget gates, never negative, factor out of their products with the previous cell state.
-/
import proofs.«162286_j20504173871325_2_alg».proof.Proof.Gen.ReferenceIdeal.Read
import proofs.«162286_j20504173871325_2_alg».proof.Proof.Spec
import Idealize.ShloMosaic.Lib.IdealHost
import Idealize.ShloMosaic.Lib.ValueIdx

noncomputable section

open scoped BigOperators

open Idealize.ShloMosaic Idealize.ShloMosaic.TcCoe Idealize.ShloMosaic.ValueIdx

namespace Cert.ReferenceIdeal.Hand

open Cert.ReferenceIdeal Cert.ReferenceIdeal.Gen Cert.ReferenceIdeal.Read Cert.Cell

variable (a : Cell.Args)

/-! ## The index computations the generated read lemmas leave -/

theorem lidx0 (r : Fin 8192) (j : Fin 4096) (k : Fin 1024) : lidx_main_v0 (ix2 r j) k = ix2 r k := funext fun d => match d with | ⟨0, _⟩ => rfl | ⟨1, _⟩ => rfl
theorem ridx0 (r : Fin 8192) (j : Fin 4096) (k : Fin 1024) : ridx_main_v0 (ix2 r j) k = ix2 k j := funext fun d => match d with | ⟨0, _⟩ => rfl | ⟨1, _⟩ => rfl
theorem lidx4 (r : Fin 8192) (j : Fin 4096) (k : Fin 1024) : lidx_main_v4 (ix2 r j) k = ix2 r k := funext fun d => match d with | ⟨0, _⟩ => rfl | ⟨1, _⟩ => rfl
theorem ridx4 (r : Fin 8192) (j : Fin 4096) (k : Fin 1024) : ridx_main_v4 (ix2 r j) k = ix2 k j := funext fun d => match d with | ⟨0, _⟩ => rfl | ⟨1, _⟩ => rfl
theorem lidx9 (r : Fin 8192) (j : Fin 4096) (k : Fin 256) : lidx_main_v9 (ix2 r j) k = ix2 r k := funext fun d => match d with | ⟨0, _⟩ => rfl | ⟨1, _⟩ => rfl
theorem ridx9 (r : Fin 8192) (j : Fin 4096) (k : Fin 256) : ridx_main_v9 (ix2 r j) k = ix2 k j := funext fun d => match d with | ⟨0, _⟩ => rfl | ⟨1, _⟩ => rfl
theorem lidx14 (r : Fin 8192) (q : Fin 1024) (k : Fin 1024) : lidx_main_v14 (ix2 r q) k = ix2 r k := funext fun d => match d with | ⟨0, _⟩ => rfl | ⟨1, _⟩ => rfl
theorem ridx14 (r : Fin 8192) (q : Fin 1024) (k : Fin 1024) : ridx_main_v14 (ix2 r q) k = ix2 k q := funext fun d => match d with | ⟨0, _⟩ => rfl | ⟨1, _⟩ => rfl
theorem bidx_W (r : Fin 8192) (j : Fin 4096) : idx_main_v1 (idx_main_v2 (ix2 r j)) = ix1 j := funext fun d => match d with | ⟨0, _⟩ => rfl
theorem bidx_U (r : Fin 8192) (j : Fin 4096) : idx_main_v5 (idx_main_v6 (ix2 r j)) = ix1 j := funext fun d => match d with | ⟨0, _⟩ => rfl
theorem bidx_S (r : Fin 8192) (j : Fin 4096) : idx_main_v10 (idx_main_v11 (ix2 r j)) = ix1 j := funext fun d => match d with | ⟨0, _⟩ => rfl
theorem bidx_V (r : Fin 8192) (q : Fin 1024) : idx_main_v15 (idx_main_v16 (ix2 r q)) = ix1 q := funext fun d => match d with | ⟨0, _⟩ => rfl
theorem slice_idx_0 (r : Fin 8192) (q : Fin 1024) : idx_main_v18 (ix2 r q) = ix2 r (gcol 0 (by decide) q) :=
  funext fun d => match d with | ⟨0, _⟩ => rfl | ⟨1, _⟩ => Fin.ext (Nat.zero_add _).symm
theorem slice_idx_1024 (r : Fin 8192) (q : Fin 1024) : idx_main_v25 (ix2 r q) = ix2 r (gcol 1024 (by decide) q) := funext fun d => match d with | ⟨0, _⟩ => rfl | ⟨1, _⟩ => rfl
theorem slice_idx_2048 (r : Fin 8192) (q : Fin 1024) : idx_main_v32 (ix2 r q) = ix2 r (gcol 2048 (by decide) q) := funext fun d => match d with | ⟨0, _⟩ => rfl | ⟨1, _⟩ => rfl
theorem slice_idx_3072 (r : Fin 8192) (q : Fin 1024) : idx_main_v39 (ix2 r q) = ix2 r (gcol 3072 (by decide) q) := funext fun d => match d with | ⟨0, _⟩ => rfl | ⟨1, _⟩ => rfl

/-! ## The pre-activations -/

/-- The [8192, 4096] array of gate pre-activations at (r, j) is the specification's. -/
theorem sums_at (r : Fin 8192) (j : Fin 4096) :
    val_main_v13 (F := Ideal) a.x a.htm a.spk a.Ww a.Wb a.Uw a.Ub a.Sw a.Sb (ix2 r j) = Cell.pre a r j := by
  rw [val_main_v13_apply, val_main_v8_apply, val_main_v3_apply, val_main_v7_apply, val_main_v12_apply,
    val_main_v0_apply, val_main_v4_apply, val_main_v9_apply,
    val_main_v2_apply, val_main_v1_apply, val_main_v6_apply, val_main_v5_apply, val_main_v11_apply, val_main_v10_apply]
  simp only [lidx0, ridx0, lidx4, ridx4, lidx9, ridx9, bidx_W, bidx_U, bidx_S]
  unfold Cell.pre Cell.dots
  exact biases_regroup _ _ _ _ _ _

/-- The hybrid gate's pre-activation at (r, q) is the specification's. -/
theorem hyb_at (r : Fin 8192) (q : Fin 1024) :
    val_main_v17 (F := Ideal) a.ztm a.Vw a.Vb (ix2 r q) = Cell.hyb a r q := by
  rw [val_main_v17_apply, val_main_v14_apply, val_main_v16_apply, val_main_v15_apply]
  simp only [lidx14, ridx14, bidx_V]
  rfl

/-- One over one plus the exponential of the negation, in the host's operations with the literal 1.0, is the logistic
    function. -/
theorem host_logistic (v : EReal) :
    FloatOps.hostDivf (F := Ideal) (φ := .f32) (FloatOps.ofBits .f32 0x3F800000#32)
      (FloatOps.addf (FloatOps.ofBits .f32 0x3F800000#32) (FloatOps.hostUnary .exp (FloatOps.hostNegf v))) = Ideal.logistic v := by
  show Ideal.div (Ideal.ofBits .f32 0x3F800000#32) (Ideal.ofBits .f32 0x3F800000#32 + Ideal.exp (-v)) = _
  rw [Ideal.ofBits_one_f32]
  rfl

/-! ## The gates -/

/-- The forget gate: the logistic function of columns 0 … 1023 of the pre-activations. -/
theorem f_at (r : Fin 8192) (q : Fin 1024) :
    val_main_v24 (F := Ideal) a.x a.htm a.spk a.Ww a.Wb a.Uw a.Ub a.Sw a.Sb (ix2 r q) = Ideal.logistic (Cell.pre a r (gcol 0 (by decide) q)) := by
  rw [val_main_v24_apply, val_main_v23_apply, val_main_cst_0_apply, val_main_v22_apply, val_main_v21_apply,
    val_main_cst_apply, val_main_v20_apply, val_main_v19_apply, val_main_v18_apply, slice_idx_0, sums_at]
  exact host_logistic _

/-- The input gate: columns 1024 … 2047. -/
theorem i_at (r : Fin 8192) (q : Fin 1024) :
    val_main_v31 (F := Ideal) a.x a.htm a.spk a.Ww a.Wb a.Uw a.Ub a.Sw a.Sb (ix2 r q) = Ideal.logistic (Cell.pre a r (gcol 1024 (by decide) q)) := by
  rw [val_main_v31_apply, val_main_v30_apply, val_main_cst_2_apply, val_main_v29_apply, val_main_v28_apply,
    val_main_cst_1_apply, val_main_v27_apply, val_main_v26_apply, val_main_v25_apply, slice_idx_1024, sums_at]
  exact host_logistic _

/-- The output gate: columns 2048 … 3071. -/
theorem o_at (r : Fin 8192) (q : Fin 1024) :
    val_main_v38 (F := Ideal) a.x a.htm a.spk a.Ww a.Wb a.Uw a.Ub a.Sw a.Sb (ix2 r q) = Ideal.logistic (Cell.pre a r (gcol 2048 (by decide) q)) := by
  rw [val_main_v38_apply, val_main_v37_apply, val_main_cst_4_apply, val_main_v36_apply, val_main_v35_apply,
    val_main_cst_3_apply, val_main_v34_apply, val_main_v33_apply, val_main_v32_apply, slice_idx_2048, sums_at]
  exact host_logistic _

/-- The candidate: the hyperbolic tangent of columns 3072 … 4095. -/
theorem g_at (r : Fin 8192) (q : Fin 1024) :
    val_main_v40 (F := Ideal) a.x a.htm a.spk a.Ww a.Wb a.Uw a.Ub a.Sw a.Sb (ix2 r q) = Ideal.tanh (Cell.pre a r (gcol 3072 (by decide) q)) := by
  rw [val_main_v40_apply, val_main_v39_apply, slice_idx_3072, sums_at]
  rfl

/-- The hybrid forget gate. -/
theorem f'_at (r : Fin 8192) (q : Fin 1024) :
    val_main_v46 (F := Ideal) a.ztm a.Vw a.Vb (ix2 r q) = Ideal.logistic (Cell.hyb a r q) := by
  rw [val_main_v46_apply, val_main_v45_apply, val_main_cst_6_apply, val_main_v44_apply, val_main_v43_apply,
    val_main_cst_5_apply, val_main_v42_apply, val_main_v41_apply, hyb_at]
  exact host_logistic _

/-! ## The two results -/

/-- The reference's new cell state at (r, q) is the specification's. -/
theorem c_at (r : Fin 8192) (q : Fin 1024) :
    val_main_v51 (F := Ideal) a.x a.ctm a.htm a.ztm a.spk a.Ww a.Wb a.Uw a.Ub a.Vw a.Vb a.Sw a.Sb (ix2 r q) = Cell.cAt a r q := by
  rw [val_main_v51_apply, val_main_v49_apply, val_main_v47_apply, val_main_v48_apply, val_main_v50_apply,
    f_at, i_at, g_at, f'_at]
  exact forget_regroup (logistic_nonneg _) (logistic_nonneg _)

/-- The reference's new hidden state at (r, q) is the specification's. -/
theorem h_at (r : Fin 8192) (q : Fin 1024) :
    val_main_v53 (F := Ideal) a.x a.ctm a.htm a.ztm a.spk a.Ww a.Wb a.Uw a.Ub a.Vw a.Vb a.Sw a.Sb (ix2 r q) = Cell.hAt a r q := by
  rw [val_main_v53_apply, val_main_v52_apply, c_at, o_at]
  rfl

theorem c_eq : val_main_v51 (F := Ideal) a.x a.ctm a.htm a.ztm a.spk a.Ww a.Wb a.Uw a.Ub a.Vw a.Vb a.Sw a.Sb = Cell.cT a := by
  funext i
  obtain ⟨r, q, rfl⟩ : ∃ (r : Fin 8192) (q : Fin 1024), i = ix2 r q := ⟨i 0, i 1, eq_ix2 i⟩
  exact c_at a r q

theorem h_eq : val_main_v53 (F := Ideal) a.x a.ctm a.htm a.ztm a.spk a.Ww a.Wb a.Uw a.Ub a.Vw a.Vb a.Sw a.Sb = Cell.hT a := by
  funext i
  obtain ⟨r, q, rfl⟩ : ∃ (r : Fin 8192) (q : Fin 1024), i = ix2 r q := ⟨i 0, i 1, eq_ix2 i⟩
  exact h_at a r q

end Cert.ReferenceIdeal.Hand

end
-- ==== Proof.lean ====
/-
  The certificate of a fused gated recurrent cell against its plain reference, on the extended reals.

  Both programs take a batch of 8192 rows — an input x, a previous hidden state, a hybrid state and a speaker vector —, the
  previous cell state, four weight matrices and their biases, and return a new cell state c and a new hidden state h. With
  pre(r, j) the sum of the three matrix products of row r with column j of the gate weights plus the three gate biases at j,
  hyb(r, q) the hybrid product plus its bias, and σ the logistic function,
      c(r, q) = (σ(pre(r, q)) + σ(hyb(r, q)))·ctm(r, q) + σ(pre(r, 1024+q))·tanh(pre(r, 3072+q)),
      h(r, q) = tanh(c(r, q))·σ(pre(r, 2048+q))                                   (Proof/Spec.lean).
  The kernel computes exactly this arrangement, 256 rows per grid point, from bf16 copies of its operands — a change of
  float format is the identity on the extended reals — and one pre-summed bias row; its 32 output blocks tile the two
  results (Proof/KernelBlock.lean: one point's blocks; Proof/KernelValue.lean: the blocks as rows of the arrays, the cover,
  the run). The reference adds each bias to its own product, spells σ as 1 / (1 + exp(-x)), and multiplies each forget gate
  by ctm separately; entry by entry that is the same extended real, because addition is commutative and associative and a
  product distributes over a sum of two non-negative factors, which σ's values are (Proof/RefValue.lean). No entry's
  finiteness is used. The kernel's idealization rewrote nothing, so the preservation claim is trivial; the three frames are
  the generated ones (the reference's is its generated run with the results dropped).
-/
import proofs.«162286_j20504173871325_2_alg».proof.Defs
import proofs.«162286_j20504173871325_2_alg».proof.Proof.Gen.Kernel
import proofs.«162286_j20504173871325_2_alg».proof.Proof.Gen.Kernel.Skeleton
import proofs.«162286_j20504173871325_2_alg».proof.Proof.Gen.Kernel.Launch
import proofs.«162286_j20504173871325_2_alg».proof.Proof.Gen.Kernel.Points
import proofs.«162286_j20504173871325_2_alg».proof.Proof.Gen.Kernel.Frame
import proofs.«162286_j20504173871325_2_alg».proof.Proof.Gen.KernelIdeal
import proofs.«162286_j20504173871325_2_alg».proof.Proof.Gen.KernelIdeal.Skeleton
import proofs.«162286_j20504173871325_2_alg».proof.Proof.Gen.KernelIdeal.Launch
import proofs.«162286_j20504173871325_2_alg».proof.Proof.Gen.KernelIdeal.Points
import proofs.«162286_j20504173871325_2_alg».proof.Proof.Gen.KernelIdeal.Frame
import proofs.«162286_j20504173871325_2_alg».proof.Proof.Gen.KernelIdeal.Value
import proofs.«162286_j20504173871325_2_alg».proof.Proof.Gen.ReferenceIdeal
import proofs.«162286_j20504173871325_2_alg».proof.Proof.Gen.ReferenceIdeal.Run
import proofs.«162286_j20504173871325_2_alg».proof.Proof.Gen.ReferenceIdeal.Read
import proofs.«162286_j20504173871325_2_alg».proof.Proof.Gen.Pre_finite_inputs
import proofs.«162286_j20504173871325_2_alg».proof.Proof.Spec
import proofs.«162286_j20504173871325_2_alg».proof.Proof.KernelValue
import proofs.«162286_j20504173871325_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the idealized reference: its run, with what it says of the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Run from memories that agree on the thirteen arguments, the kernel leaves the specification's two arrays in its two
    results and so does the reference. -/
theorem algebraic : Cert.algebraic_KernelIdeal_ReferenceIdeal := by
  intro m ρ m' ρ' _ hagree
  refine ⟨fun c => Cert.Cell.cT (Cert.KernelIdeal.Hand.args m c), fun c => Cert.Cell.hT (Cert.KernelIdeal.Hand.args m c),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    rw [Cert.ReferenceIdeal.Read.val_main_v51_eq, e0, e1, e2, e3, e4, e5, e6, e7, e8, e9, e10, e11, e12]
    exact Cert.ReferenceIdeal.Hand.c_eq (Cert.KernelIdeal.Hand.args m c)
  · obtain ⟨e0, e1, e2, e3, e4, e5, e6, e7, e8, e9, e10, e11, e12⟩ := hagree c
    rw [Cert.ReferenceIdeal.Read.val_main_v53_eq, e0, e1, e2, e3, e4, e5, e6, e7, e8, e9, e10, e11, e12]
    exact Cert.ReferenceIdeal.Hand.h_eq (Cert.KernelIdeal.Hand.args m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
